-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S16x128 : Shape := ⟨2, ![16, 128]⟩
abbrev S8192x128 : Shape := ⟨2, ![8192, 128]⟩
abbrev S8x128 : Shape := ⟨2, ![8, 128]⟩
abbrev S1024x8x128 : Shape := ⟨3, ![1024, 8, 128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8x128, .f32⟩
  | .local _ .vmem, ⟨5, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .i1⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i1⟩
  | .hbm, ⟨12, _⟩ => ⟨S33554432, .i1⟩
  | .hbm, ⟨13, _⟩ => ⟨S_, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S33554432, .f32⟩
  | .hbm, ⟨19, _⟩ => ⟨S33554432, .f32⟩
  | .hbm, ⟨20, _⟩ => ⟨S33554432, .f32⟩
  | .hbm, ⟨21, _⟩ => ⟨S33554432, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.KPoint.lean ====
/-
  What one grid point leaves in the output block's staging buffer.  The body adds, to what the buffer holds
  (the zero block at the first point of a core's run, what the point before left otherwise), the point's
  partial sum: the (8192, 128) tile of weighted squared errors cut into 1024 slabs of (8, 128) and summed slab by slab.
-/
import proofs.«142048_j73538430042130_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PointValue

open Cert.KernelIdeal Cert.KernelIdeal.Gen

variable {F : FTy → Type} [FloatOps F]

theorem hz : (![0, 0] : Fin 2 → Nat) = fun _ => 0 := funext fun a => by fin_cases a <;> rfl

/-- A point that is not the first of its core's run leaves the buffer's contents plus its partial sum. -/
theorem out_B (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : ¬cond0_0 i) (x0 : Vec F S8192x128 .f32) (x1 : Vec F S8192x128 .i32) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S8192x128) hz,
    View.ld_unit_zero (S := S8x128) hz]

/-- The first point of a core's run stores the zero block first, and leaves the zero block plus its partial sum. -/
theorem out_A (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : cond0_0 i) (x0 : Vec F S8192x128 .f32) (x1 : Vec F S8192x128 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S8192x128) hz]

end Cert.KernelIdeal.PointValue

end
-- ==== Proof.Spec.lean ====
/-
  The weighted squared error of one entry: for a prediction `x` and an integer label `t`,
  `w · (x - t) · (x - t)` with `w = 3` when `4.5 < x < 5.5` and `t ≠ 5`, and `w = 1` otherwise.
  Both programs compute this entry by entry with the same scalar operations; they differ only in how the
  33554432 entries are summed and in how the sum is scaled.
-/
import Idealize.ShloMosaic.PureOps.Ideal
import Idealize.ShloMosaic.Lib.ValueIdx

noncomputable section

namespace Cert.Spec

open Idealize.ShloMosaic

variable {F : FTy → Type} [FloatOps F]

/-- One entry's weighted squared error, over the scalar operations both programs apply. -/
def term (x : F .f32) (t : BitVec 32) : F .f32 :=
  FloatOps.mulf
    (FloatOps.mulf
      (Scalar.select
        (IntOp.andi
          (IntOp.andi (FloatOps.cmpf .ogt x (FloatOps.ofBits .f32 0x40900000#32))
            (FloatOps.cmpf .olt x (FloatOps.ofBits .f32 0x40B00000#32)))
          (IntOp.cmpi .ne t 5#32))
        (FloatOps.ofBits .f32 0x40400000#32) (FloatOps.ofBits .f32 0x3F800000#32))
      (FloatOps.subf x (FloatOps.sitofp .f32 t)))
    (FloatOps.subf x (FloatOps.sitofp .f32 t))

/-! ## Two ways of summing 33554432 entries

The reference sums the flat array.  The kernel views it as 262144 rows of 128 lanes, cuts the rows into 32 tiles of
8192 rows, and for tile `p` forms the (8, 128) partial sum whose entry `(s, l)` adds the tile's rows `8g + s`
(`g < 1024`) at lane `l`.  Tiles `16c … 16c + 15` are accumulated into rows `8c … 8c + 7` of a (16, 128) array,
whose 2048 entries are then summed.  Every flat position is met exactly once:
`n = ((16·(r / 8) + k)·8192 + (8g + r % 8))·128 + l` for a unique row `r < 16`, lane `l < 128`, tile `k < 16` of the
core's run and slab `g < 1024`. -/

variable {M : Type*} [AddCommMonoid M]

/-- A flat array as a function of every natural number: zero past its end. -/
def ext0 (f : Fin 33554432 → M) (n : ℕ) : M := if h : n < 33554432 then f ⟨n, h⟩ else 0

/-- Tile `p`'s partial sum at `(s, l)`: the sum over the slabs `g` of the flat entry at row `8192p + 8g + s`, lane `l`. -/
def tileSum (a : ℕ → M) (p s l : ℕ) : M := ∑ g : Fin 1024, a ((p * 8192 + (8 * g.val + s)) * 128 + l)

/-- Entry `(r, l)` of the accumulated (16, 128) array: the partial sums of the sixteen tiles of core `r / 8`, at row `r % 8`. -/
def blockEntry (a : ℕ → M) (r l : ℕ) : M := ∑ k ∈ Finset.range 16, tileSum a (16 * (r / 8) + k) (r % 8) l

/-- (row, lane, tile of the run, slab) ↔ flat position. -/
def regroup : Fin 16 × Fin 128 × Fin 16 × Fin 1024 ≃ Fin 33554432 where
  toFun q := ⟨((16 * (q.1.val / 8) + q.2.2.1.val) * 8192 + (8 * q.2.2.2.val + q.1.val % 8)) * 128 + q.2.1.val, by
    have := q.1.isLt; have := q.2.1.isLt; have := q.2.2.1.isLt; have := q.2.2.2.isLt; omega⟩
  invFun n := (⟨8 * (n.val / 128 / 8192 / 16) + n.val / 128 % 8192 % 8, by have := n.isLt; omega⟩,
    ⟨n.val % 128, by omega⟩, ⟨n.val / 128 / 8192 % 16, by omega⟩, ⟨n.val / 128 % 8192 / 8, by omega⟩)
  left_inv q := by
    obtain ⟨r, l, k, g⟩ := q
    have := r.isLt; have := l.isLt; have := k.isLt; have := g.isLt
    refine Prod.ext (Fin.ext ?_) (Prod.ext (Fin.ext ?_) (Prod.ext (Fin.ext ?_) (Fin.ext ?_))) <;> dsimp only <;> omega
  right_inv n := by
    have := n.isLt
    refine Fin.ext ?_
    dsimp only
    omega

/-- The accumulated array's 2048 entries add up to the flat array's sum. -/
theorem sum_blockEntry (f : Fin 33554432 → M) :
    ∑ r : Fin 16, ∑ l : Fin 128, blockEntry (ext0 f) r.val l.val = ∑ n, f n := by
  rw [← Equiv.sum_comp regroup f]
  simp only [Fintype.sum_prod_type]
  refine Finset.sum_congr rfl fun r _ => Finset.sum_congr rfl fun l _ => ?_
  unfold blockEntry
  rw [Finset.sum_range]
  refine Finset.sum_congr rfl fun k _ => ?_
  unfold tileSum
  refine Finset.sum_congr rfl fun g _ => ?_
  unfold ext0
  have := r.isLt; have := l.isLt; have := k.isLt; have := g.isLt
  rw [dif_pos (by omega)]
  rfl

end Cert.Spec

end
-- ==== Proof.KPay.lean ====
/-
  The body's arithmetic at one entry of the (8, 128) output block.  The body forms the (8192, 128) tile of weighted
  squared errors, reads it as 1024 slabs of (8, 128) — slab `g` is rows `8g … 8g + 7` — and adds the slabs to what
  the block held.  Over the extended reals, entry `(s, l)` of the result is the old entry plus the sum over `g` of
  the tile's entry `(8g + s, l)`.
-/
import proofs.«142048_j73538430042130_2_alg».proof.Proof.Gen.KernelIdeal.Skeleton
import proofs.«142048_j73538430042130_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.PayValue

open Cert.KernelIdeal Cert.KernelIdeal.Gen

/-- The tile of weighted squared errors of a block of predictions and its block of labels. -/
def tile {F : FTy → Type} [FloatOps F] (x0 : Vec F S8192x128 .f32) (x1 : Vec F S8192x128 .i32) : FVec F S8192x128 .f32 :=
  fun j => Cert.Spec.term (x0 j) (x1 j)

/-- The stored value is the old block plus the slab-wise sum of the tile: every operation before the reshape is
    entry by entry, and the two shape-preserving casts are the identity. -/
theorem pay_eq {F : FTy → Type} [FloatOps F] (x0 : Vec F S8192x128 .f32) (x1 : Vec F S8192x128 .i32) (acc : Vec F S8x128 .f32) :
    k0_pay2 x0 x1 acc = addf acc (multiReduction .add [0] S8x128
      (shapeCast S1024x8x128 (tile x0 x1) shapeCasts_S8192x128_S1024x8x128) 0x00000000#32 reduces_S1024x8x128_S8x128 (.inl rfl) rfl) := by
  unfold k0_pay2
  simp only [shapeCast_self]
  rfl

/-- Row `8g + s` of the tile: row `s` of slab `g`. -/
abbrev slabRow (g : Fin 1024) (s : Fin 8) : Fin 8192 := ⟨8 * g.val + s.val, by omega⟩

/-- Entry `(g, s, l)` of the tile read as slabs is its entry `(8g + s, l)`: the same row-major position. -/
theorem slab_apply {α : Type} (v : S8192x128.Idx → α) (g : Fin 1024) (s : Fin 8) (l : Fin 128) :
    shapeCast S1024x8x128 v shapeCasts_S8192x128_S1024x8x128 (ix3 g s l) = v (ix2 (slabRow g s) l) :=
  shapeCast_apply v _ (ix3 g s l) (ix2 (slabRow g s) l) (by
    rw [Shape.rowMajor_val_two, Shape.rowMajor_val_three]
    show (8 * g.val + s.val) * 128 + l.val = (g.val * 8 + s.val) * 128 + l.val
    omega)

/-- Re-inserting the slab coordinate `g` in front of `(s, l)`. -/
theorem lift_eq (g : Fin 1024) (s : Fin 8) (l : Fin 128) :
    reduces_S1024x8x128_S8x128.lift (ix2 s l) g = ix3 g s l := by
  funext a
  match a with
  | ⟨0, _⟩ => rfl
  | ⟨1, _⟩ => rfl
  | ⟨2, _⟩ => rfl

/-- Over the extended reals: entry `(s, l)` of the stored value is the old entry plus the sum over the slabs. -/
theorem pay_apply (x0 : Vec Ideal S8192x128 .f32) (x1 : Vec Ideal S8192x128 .i32) (acc : Vec Ideal S8x128 .f32)
    (s : Fin 8) (l : Fin 128) :
    k0_pay2 (F := Ideal) x0 x1 acc (ix2 s l) = acc (ix2 s l) + ∑ g : Fin 1024, tile x0 x1 (ix2 (slabRow g s) l) := by
  rw [pay_eq]
  refine congrArg (acc (ix2 s l) + ·) ?_
  refine (Ideal.multiReduction_add_single _ 0x00000000#32 reduces_S1024x8x128_S8x128 (.inl rfl) rfl (ix2 s l)).trans ?_
  exact Finset.sum_congr rfl fun g _ => (congrArg _ (lift_eq g s l)).trans (slab_apply _ g s l)

end Cert.KernelIdeal.PayValue

end
-- ==== Proof.KBlock.lean ====
/-
  What the kernel's windows read.  The two flat arguments are viewed as 262144 rows of 128 lanes; grid point `t`
  (of 32) is handed rows `8192t … 8192t + 8191` of both, and the output block of point `t` is rows
  `8(t / 16) … 8(t / 16) + 7` of the (16, 128) result.
-/
import proofs.«142048_j73538430042130_2_alg».proof.Proof.Gen.KernelIdeal.Frame
import proofs.«142048_j73538430042130_2_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.BlockValue

open Cert.KernelIdeal Cert.KernelIdeal.Gen

variable {F : FTy → Type} [FloatOps F]
variable (m : (ℓ : Loc nD τ sig) → Buf (Elt F) ℓ)

/-- The predictions as the region finds them: the flat argument read as rows of 128. -/
theorem V_v0 (c : Dev nD) : (V m c main_v0 : S262144x128.Idx → Elt F .f32)
    = shapeCast S262144x128 (m ((c : Thread nD τ).loc main_arg0)) shapeCasts_S33554432_S262144x128 := by
  show StableHlo.after hostOps0 (fun b => m (c, b)) (Proc.devRef .tc main_v0) = _
  after_results
  rfl

/-- The labels as the region finds them: likewise. -/
theorem V_v1 (c : Dev nD) : (V m c main_v1 : S262144x128.Idx → Elt F .i32)
    = shapeCast S262144x128 (m ((c : Thread nD τ).loc main_arg1)) shapeCasts_S33554432_S262144x128 := by
  show StableHlo.after hostOps0 (fun b => m (c, b)) (Proc.devRef .tc main_v1) = _
  after_results
  rfl

/-- Row `R`, lane `l` of the row view is flat position `128R + l`. -/
theorem rows_apply {α : Type} (x : S33554432.Idx → α) (R : Fin 262144) (l : Fin 128) :
    shapeCast S262144x128 x shapeCasts_S33554432_S262144x128 (ix2 R l)
      = x (ix1 ⟨R.val * 128 + l.val, by have := R.isLt; have := l.isLt; omega⟩) :=
  shapeCast_apply x _ (ix2 R l) _ (by rw [Shape.rowMajor_val_one, Shape.rowMajor_val_two]; rfl)

/-- Where the windows sit at point `t`. -/
theorem idx_facts : ∀ t : Fin cfg0.N, win0_0.index t (0 : Fin 2) = t.val ∧ win0_0.index t (1 : Fin 2) = 0
      ∧ win0_1.index t (0 : Fin 2) = t.val ∧ win0_1.index t (1 : Fin 2) = 0
      ∧ win0_2.index t (0 : Fin 2) = t.val / 16 ∧ win0_2.index t (1 : Fin 2) = 0 :=
  (by decide +kernel : ∀ t : Fin grid0.N, _)

/-- Row `R` of point `t`'s tile is row `8192t + R` of the row view. -/
theorem tileRow_lt (t : Fin cfg0.N) (R : Fin 8192) : t.val * 8192 + R.val < 262144 := by
  have := t.isLt; have hN : cfg0.N = 32 := N_0; have := R.isLt; omega

/-- Point `t`'s block of predictions, read at `(R, l)`. -/
theorem iblk0_apply (c : Dev nD) (t : Fin cfg0.N) (R : Fin 8192) (l : Fin 128) :
    (iblk m c 0 t : S8192x128.Idx → Elt F .f32) (ix2 R l)
      = m ((c : Thread nD τ).loc main_arg0) (ix1 ⟨(t.val * 8192 + R.val) * 128 + l.val, by
          have := tileRow_lt t R; have := l.isLt; omega⟩) := by
  obtain ⟨h0, h1, -⟩ := idx_facts t
  unfold iblk
  rw [View.read_apply]
  show V m c main_v0 _ = _
  rw [V_v0]
  refine (congrArg _ ?_).trans (rows_apply (m ((c : Thread nD τ).loc main_arg0)) ⟨t.val * 8192 + R.val, tileRow_lt t R⟩ l)
  funext a
  apply Fin.ext
  match a with
  | ⟨0, _⟩ => show win0_0.index t 0 * 8192 + 1 * R.val = t.val * 8192 + R.val; rw [h0]; omega
  | ⟨1, _⟩ => show win0_0.index t 1 * 128 + 1 * l.val = l.val; rw [h1]; omega

/-- Point `t`'s block of labels, read at `(R, l)`. -/
theorem iblk1_apply (c : Dev nD) (t : Fin cfg0.N) (R : Fin 8192) (l : Fin 128) :
    (iblk m c 1 t : S8192x128.Idx → Elt F .i32) (ix2 R l)
      = m ((c : Thread nD τ).loc main_arg1) (ix1 ⟨(t.val * 8192 + R.val) * 128 + l.val, by
          have := tileRow_lt t R; have := l.isLt; omega⟩) := by
  obtain ⟨-, -, h0, h1, -⟩ := idx_facts t
  unfold iblk
  rw [View.read_apply]
  show V m c main_v1 _ = _
  rw [V_v1]
  refine (congrArg _ ?_).trans (rows_apply (m ((c : Thread nD τ).loc main_arg1)) ⟨t.val * 8192 + R.val, tileRow_lt t R⟩ l)
  funext a
  apply Fin.ext
  match a with
  | ⟨0, _⟩ => show win0_1.index t 0 * 8192 + 1 * R.val = t.val * 8192 + R.val; rw [h0]; omega
  | ⟨1, _⟩ => show win0_1.index t 1 * 128 + 1 * l.val = l.val; rw [h1]; omega

end Cert.KernelIdeal.BlockValue

end
-- ==== Proof.KAcc.lean ====
/-
  What the output block's staging buffer holds after each grid point, over the extended reals.  A core's run is
  sixteen consecutive points: the first stores the zero block and adds its tile's partial sum, each later one adds its
  own to what the point before left.  So after point `n` the buffer holds the partial sums of the points
  `n - n % 16 … n`, added up; after the last point of a run, of all sixteen.
-/
import proofs.«142048_j73538430042130_2_alg».proof.Proof.KPoint
import proofs.«142048_j73538430042130_2_alg».proof.Proof.KPay
import proofs.«142048_j73538430042130_2_alg».proof.Proof.KBlock

noncomputable section

open Idealize.ShloMosaic Idealize.ShloMosaic.TcCoe Idealize.SL.Sem Idealize.ShloMosaic.ValueIdx
open Idealize.ShloMosaic.Pipeline (Dat)

namespace Cert.KernelIdeal.AccValue

open Cert.KernelIdeal Cert.KernelIdeal.Gen Cert.KernelIdeal.PointValue Cert.KernelIdeal.PayValue
  Cert.KernelIdeal.BlockValue Cert.Spec

variable (m : (ℓ : Loc nD τ sig) → Buf (Elt Ideal) ℓ)

/-- The weighted squared error of flat entry `n` of the two arguments. -/
def flat (c : Dev nD) : Fin 33554432 → Ideal .f32 := fun n =>
  term (m ((c : Thread nD τ).loc main_arg0) (ix1 n)) (m ((c : Thread nD τ).loc main_arg1) (ix1 n))

/-- An entry of the tile, from the entries of its two blocks. -/
theorem tile_at (x0 : Vec Ideal S8192x128 .f32) (x1 : Vec Ideal S8192x128 .i32) (j : S8192x128.Idx)
    (a : Ideal .f32) (b : BitVec 32) (h0 : x0 j = a) (h1 : x1 j = b) : tile x0 x1 j = term a b := by
  unfold tile
  rw [h0, h1]

/-- Point `t`'s partial sum at `(s, l)`, over the flat entries. -/
theorem tile_sum (c : Dev nD) (t : Fin cfg0.N) (s : Fin 8) (l : Fin 128) :
    ∑ g : Fin 1024, tile (iblk m c 0 t) (iblk m c 1 t) (ix2 (slabRow g s) l) = tileSum (ext0 (flat m c)) t.val s.val l.val := by
  unfold tileSum
  refine Finset.sum_congr rfl fun g _ => ?_
  refine (tile_at _ _ _ _ _ (iblk0_apply m c t (slabRow g s) l) (iblk1_apply m c t (slabRow g s) l)).trans ?_
  have hlt : (t.val * 8192 + (8 * g.val + s.val)) * 128 + l.val < 33554432 := by
    have h1 := tileRow_lt t (slabRow g s); have h2 := l.isLt
    have h3 : (slabRow g s).val = 8 * g.val + s.val := rfl
    omega
  show flat m c ⟨_, hlt⟩ = ext0 (flat m c) _
  unfold ext0
  rw [dif_pos hlt]

/-- The zero block's entries are the extended real zero. -/
theorem zero_apply (j : S8x128.Idx) : k0_pay1 (F := Ideal) j = 0 := Ideal.ofBits_zero_f32

/-- After point `n` the buffer's entry `(s, l)` is the sum of the partial sums of the points of the run so far. -/
theorem outsAt_apply (c : Dev nD) : ∀ (n : ℕ) (h : n < cfg0.N) (s : Fin 8) (l : Fin 128),
    outsAt0 m c n h (ix2 s l) = ∑ k ∈ Finset.range (n % 16 + 1), tileSum (ext0 (flat m c)) (n - n % 16 + k) s.val l.val
  | 0, h, s, l => by
    rw [(outsAt0_A m c ⟨0, h⟩ rfl).trans (out_A ..), pay_apply, tile_sum, zero_apply, zero_add]
    simp
  | n + 1, h, s, l => by
    by_cases h0 : (n + 1) % 16 = 0
    · rw [(outsAt0_A m c ⟨n + 1, h⟩ h0).trans (out_A ..), pay_apply, tile_sum, zero_apply, zero_add, h0]
      simp
    · rw [(outsAt0_B m c ⟨n + 1, h⟩ h0).trans (out_B ..), pay_apply, tile_sum]
      show outsAt0 m c n _ (ix2 s l) + _ = _
      rw [outsAt_apply c n]
      have e1 : (n + 1) % 16 = n % 16 + 1 := by omega
      have e2 : n + 1 - (n + 1) % 16 = n - n % 16 := by omega
      rw [e2, e1, Finset.sum_range_succ _ (n % 16 + 1)]
      refine congrArg (_ + ·) ?_
      show tileSum _ (n + 1) _ _ = _
      congr 1
      omega

end Cert.KernelIdeal.AccValue

end
-- ==== Proof.KFinal.lean ====
/-
  The (16, 128) array the kernel leaves, and the program's result.  The output block of a core is written back once,
  after the last of its sixteen points, and then holds the sum of the sixteen partial sums; the two blocks tile the
  array.  The host then sums the 2048 entries from zero and multiplies by `2^-25`.
-/
import proofs.«142048_j73538430042130_2_alg».proof.Proof.KAcc
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.FinalValue

open Cert.KernelIdeal Cert.KernelIdeal.Gen Cert.KernelIdeal.BlockValue Cert.KernelIdeal.AccValue Cert.Spec

variable (m : (ℓ : Loc nD τ sig) → Buf (Elt Ideal) ℓ) (ρ : Dev nD → PrngReg)

/-- The accumulated array, entry by entry. -/
def accFn (c : Dev nD) : S16x128.Idx → Ideal .f32 := fun i => blockEntry (ext0 (flat m c)) (i 0).val (i 1).val

/-- The same, as contents of the kernel's result array. -/
abbrev acc (c : Dev nD) : Buf (Elt Ideal) ((c : Thread nD τ).loc main_v2) := accFn m c

/-- What the last point of a core's run writes back is that core's block of the accumulated array. -/
theorem flushed_eq (c : Dev nD) (t : Fin cfg0.N) (hf : (cfg0.win 2).flush t = true) :
    (dats m 0 c).flushed 2 t = ((cfg0.win 2).blk t).view.read (Elt Ideal) (acc m c) := by
  have h15 : t.val % 16 = 15 := (flush0_2 t).mp hf
  obtain ⟨-, -, -, -, e0, e1⟩ := idx_facts t
  show (cfg0.win 2).cut (grid0.coords t) ((dats m 0 c).after 2 t) = _
  rw [after0_2]
  show (outsAt0 m c t.val t.isLt : S8x128.Idx → Ideal .f32) = fun j : S8x128.Idx => accFn m c (((cfg0.win 2).blk t).view.emb j)
  funext j
  obtain ⟨s, l, rfl⟩ : ∃ (s : Fin 8) (l : Fin 128), j = ix2 s l := ⟨j 0, j 1, eq_ix2 j⟩
  rw [outsAt_apply]
  have r0 : ((((cfg0.win 2).blk t).view.emb (ix2 s l)) 0).val = 8 * (t.val / 16) + s.val := by
    show win0_2.index t 0 * 8 + 1 * s.val = _
    rw [e0]; omega
  have r1 : ((((cfg0.win 2).blk t).view.emb (ix2 s l)) 1).val = l.val := by
    show win0_2.index t 1 * 128 + 1 * l.val = _
    rw [e1]; omega
  show _ = blockEntry _ ((((cfg0.win 2).blk t).view.emb (ix2 s l)) 0).val ((((cfg0.win 2).blk t).view.emb (ix2 s l)) 1).val
  rw [r0, r1, h15]
  unfold blockEntry
  have hs := s.isLt
  have d0 : (8 * (t.val / 16) + s.val) / 8 = t.val / 16 := by omega
  have d1 : (8 * (t.val / 16) + s.val) % 8 = s.val := by omega
  rw [d0, d1]
  refine Finset.sum_congr rfl fun k _ => ?_
  congr 1
  omega

/-- An entry of the array lies in a point's output block iff its row is one of the block's eight. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Every entry is in the block written back by the last point of its core's run. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  let t : Fin cfg0.N := ⟨16 * ((i 0).val / 8) + 15, by rw [hN]; omega⟩
  have ht : t.val = 16 * ((i 0).val / 8) + 15 := rfl
  obtain ⟨-, -, -, -, e0, e1⟩ := idx_facts t
  refine ⟨t, (flush0_2 t).mpr (by rw [ht]; omega), ?_⟩
  rw [mem_blk]
  intro a
  match a with
  | ⟨0, _⟩ => show win0_2.index t (0 : Fin 2) * 8 ≤ (i 0).val ∧ (i 0).val < win0_2.index t (0 : Fin 2) * 8 + 8; rw [e0, ht]; omega
  | ⟨1, _⟩ => show win0_2.index t (1 : Fin 2) * 128 ≤ (i 1).val ∧ (i 1).val < win0_2.index t (1 : Fin 2) * 128 + 128; rw [e1]; omega

/-- So the kernel's result array ends holding the accumulated array. -/
theorem final (c : Dev nD) : (dats m 0 c).arrAt 2 cfg0.N = acc m c :=
  (dats m 0 c).arrAt_eq_of_cover 2 (acc m c) (flushed_eq m c) cover

end Cert.KernelIdeal.FinalValue

end
-- ==== Proof.KRun.lean ====
/-
  The kernel program's run, read: its result is the sum of the accumulated array's entries, started from zero and
  multiplied by `2^-25`; over the extended reals, zero plus the sum of all 33554432 weighted squared errors, times
  `2^-25`.  The two arguments end unchanged.
-/
import proofs.«142048_j73538430042130_2_alg».proof.Proof.KFinal

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.AccValue Cert.KernelIdeal.FinalValue Cert.Spec

variable (m : (ℓ : Loc nD τ sig) → Buf (Elt Ideal) ℓ) (ρ : Dev nD → PrngReg)

/-- What the host operations after the kernel make of its (16, 128) array. -/
def tailOf (G : S16x128.Idx → Ideal .f32) : S_.Idx → Ideal .f32 :=
  mulf (Host.reduceAdd G (constant (F := Ideal) S_ .f32 0x00000000#32) reducesTo_S16x128_S_d0_1 h_S_)
    (constant (F := Ideal) S_ .f32 0x33000000#32)

/-- The program's result after the run is that, of the accumulated array. -/
theorem tail_eq (c : Dev nD) :
    Pipeline.afterTail₀ cfgs (dats m) 0 (V0 m) [hostOps1] c main_v4 = tailOf (accFn m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = accFn m c := (Pipeline.withArrays_arr spec0 launch0.win.arr_inj c _ _ 2).trans (final m c)
  rw [e]
  rfl

/-- Over the extended reals the result is zero plus the sum of every flat entry's weighted squared error, times `2^-25`. -/
theorem tailOf_acc (c : Dev nD) (i : S_.Idx) :
    tailOf (accFn m c) i = (Ideal.ofBits .f32 0x00000000#32 + ∑ n, flat m c n) * Ideal.ofBits .f32 0x33000000#32 := by
  unfold tailOf
  show Ideal.hostReduceAdd reducesTo_S16x128_S_d0_1 (accFn m c) _ i * _ = _
  rw [Ideal.hostReduceAdd_total reducesTo_S16x128_S_d0_1 (fun b => b.elim0) (accFn m c) _ i, sum_idx2]
  unfold accFn
  rw [sum_blockEntry (flat m c)]
  rfl

/-- Every weakly fair execution of the kernel program terminates with its result at that value and both arguments unchanged. -/
theorem run : θ_run defs (onTc (τ := τ) (main (F := Ideal))) ⟨m, fun _ => 0, ρ⟩ fun r => ∀ c : Dev nD,
      r.2.mem ((c.tc : Thread nD τ).loc main_v4) = tailOf (accFn m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RunValue

end
-- ==== Proof.RefVal.lean ====
/-
  The reference, over the extended reals: the sum over all 33554432 flat entries of the weighted squared error,
  started from zero, divided by 33554432.
-/
import proofs.«142048_j73538430042130_2_alg».proof.Proof.Gen.ReferenceIdeal.Read
import proofs.«142048_j73538430042130_2_alg».proof.Proof.Spec
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

/-- Entry `i` of the array the reference sums is the weighted squared error of the arguments' entries `i`. -/
theorem v12_apply (x0 : (⟨S33554432, .f32⟩ : BufTy).Contents (Elt Ideal)) (x1 : (⟨S33554432, .i32⟩ : BufTy).Contents (Elt Ideal))
    (i : S33554432.Idx) : val_main_v12 (F := Ideal) x0 x1 i = term (F := Ideal) (x0 i) (x1 i) := by
  simp only [val_main_v12_apply, val_main_v11_apply, val_main_v10_apply, val_main_v9_apply, val_main_v8_apply,
    val_main_v7_apply, val_main_v6_apply, val_main_v5_apply, val_main_c_apply, val_main_v4_apply, val_main_v3_apply,
    val_main_v2_apply, val_main_cst_0_apply, val_main_v1_apply, val_main_v0_apply, val_main_cst_apply,
    val_main_call0_v0_apply, val_main_cst_1_apply, val_main_call0_v1_apply, val_main_cst_2_apply]
  rfl

/-- A flat index is its one coordinate. -/
def idxEquiv1 : S33554432.Idx ≃ Fin 33554432 where
  toFun j := j 0
  invFun n := ix1 n
  left_inv j := (eq_ix1 j).symm
  right_inv _ := rfl

/-- The reference's result: zero plus the sum of every entry's weighted squared error, over the count. -/
theorem result_apply (x0 : (⟨S33554432, .f32⟩ : BufTy).Contents (Elt Ideal)) (x1 : (⟨S33554432, .i32⟩ : BufTy).Contents (Elt Ideal))
    (i : S_.Idx) :
    val_main_v14 (F := Ideal) x0 x1 i
      = Ideal.div (Ideal.ofBits .f32 0x00000000#32 + ∑ n : Fin 33554432, term (F := Ideal) (x0 (ix1 n)) (x1 (ix1 n)))
          (Ideal.ofBits .f32 0x4C000000#32) := by
  rw [val_main_v14_apply, val_main_v13_apply, val_main_cst_4_apply, val_main_cst_3_apply]
  simp only [v12_apply]
  rw [← Equiv.sum_comp idxEquiv1.symm]
  rfl

end Cert.ReferenceIdeal.RefValue

end
-- ==== Proof.Consts.lean ====
/-
  The two scaling constants.  The kernel multiplies the total by the float `2^-25`; the reference divides it by the
  float `2^25 = 33554432`.  Both are exact binary values, and on the extended reals dividing by `2^25` is
  multiplying by `2^-25`.
-/
import Idealize.ShloMosaic.PureOps.Ideal
import Idealize.ShloMosaic.PureOps.Ideal.Laws

noncomputable section

namespace Cert.Consts

open Idealize.ShloMosaic

/-- The reference's divisor is the real number 33554432. -/
theorem ofBits_count : Ideal.ofBits .f32 0x4C000000#32 = ((33554432 : ℝ) : EReal) := by
  simp [Ideal.ofBits, Ideal.ieee, -EReal.coe_mul]; norm_num

/-- The kernel's factor is the real number 1 / 33554432. -/
theorem ofBits_inv_count : Ideal.ofBits .f32 0x33000000#32 = ((1 / 33554432 : ℝ) : EReal) := by
  simp [Ideal.ofBits, Ideal.ieee, -EReal.coe_mul]; norm_num

/-- Dividing by the count is multiplying by its reciprocal, for every extended real. -/
theorem div_count (x : EReal) :
    Ideal.div x (Ideal.ofBits .f32 0x4C000000#32) = x * Ideal.ofBits .f32 0x33000000#32 := by
  rw [ofBits_count, ofBits_inv_count]
  exact Ideal.div_coe (by norm_num) x

end Cert.Consts

end
-- ==== Proof.lean ====
/-
  Penalized mean squared error: the mean over 33554432 entries of `w · (x - t)²`, where the weight `w` is 3 when
  the prediction `x` lies strictly between 4.5 and 5.5 while the label `t` is not 5, and 1 otherwise.

  The reference sums the weighted squared errors of the flat arrays from zero and divides by 33554432.  The kernel
  views the arrays as 262144 rows of 128 lanes; each of 32 grid points takes 8192 rows, forms the weighted squared
  errors entry by entry with the same scalar operations, and adds them slab by slab (1024 slabs of 8 rows) into an
  (8, 128) block; the sixteen points of a core accumulate into one block of a (16, 128) array; the host sums that
  array from zero and multiplies by the float `2^-25`.

  Over the extended reals addition is commutative and associative, so the kernel's regrouped sum is the flat sum
  (every flat position is met exactly once), and dividing by the real `2^25` is multiplying by `2^-25` for every
  extended real.  No finiteness of the inputs is used.  The ideal pass rewrote nothing, so `preserves` is `True`.
-/
import proofs.«142048_j73538430042130_2_alg».proof.Defs
import proofs.«142048_j73538430042130_2_alg».proof.Proof.Gen.Kernel
import proofs.«142048_j73538430042130_2_alg».proof.Proof.Gen.Kernel.Skeleton
import proofs.«142048_j73538430042130_2_alg».proof.Proof.Gen.Kernel.Launch
import proofs.«142048_j73538430042130_2_alg».proof.Proof.Gen.Kernel.Points
import proofs.«142048_j73538430042130_2_alg».proof.Proof.Gen.Kernel.Frame
import proofs.«142048_j73538430042130_2_alg».proof.Proof.Gen.KernelIdeal
import proofs.«142048_j73538430042130_2_alg».proof.Proof.Gen.KernelIdeal.Skeleton
import proofs.«142048_j73538430042130_2_alg».proof.Proof.Gen.KernelIdeal.Launch
import proofs.«142048_j73538430042130_2_alg».proof.Proof.Gen.KernelIdeal.Points
import proofs.«142048_j73538430042130_2_alg».proof.Proof.Gen.KernelIdeal.Frame
import proofs.«142048_j73538430042130_2_alg».proof.Proof.Gen.ReferenceIdeal
import proofs.«142048_j73538430042130_2_alg».proof.Proof.Gen.ReferenceIdeal.Run
import proofs.«142048_j73538430042130_2_alg».proof.Proof.Gen.ReferenceIdeal.Read
import proofs.«142048_j73538430042130_2_alg».proof.Proof.Gen.Pre_finite_inputs
import proofs.«142048_j73538430042130_2_alg».proof.Proof.KRun
import proofs.«142048_j73538430042130_2_alg».proof.Proof.RefVal
import proofs.«142048_j73538430042130_2_alg».proof.Proof.Consts
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with zero plus the sum of all weighted squared errors, scaled by `2^-25`: the reference as a
    quotient by `2^25`, the kernel as a product with `2^-25`. -/
theorem algebraic : Cert.algebraic_KernelIdeal_ReferenceIdeal := by
  intro m ρ m' ρ' _ hagree
  refine ⟨fun c => Cert.KernelIdeal.RunValue.tailOf (Cert.KernelIdeal.FinalValue.accFn m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v14_eq]
  funext i
  rw [Cert.ReferenceIdeal.RefValue.result_apply]
  exact (Cert.Consts.div_count _).trans (Cert.KernelIdeal.RunValue.tailOf_acc m c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
